-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S1024x512 .f32 .bf16
  ∧ IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel

variable [Facts]

def fn {F : FTy → Type} [FloatOps F] (main_arg0 : FVec F S4x2048x512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  main_v3
-- ==== Kernel.lean ====
abbrev S4x2048x512 : Shape := ⟨3, ![4, 2048, 512]⟩
abbrev S8192x512 : Shape := ⟨2, ![8192, 512]⟩
abbrev S1x1 : Shape := ⟨2, ![1, 1]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S4x2048x512, .f32⟩
  | .hbm, ⟨1, _⟩ => ⟨S8192x512, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S8192x512, .f32⟩
  | .local _ .vmem, ⟨1, _⟩ => ⟨S1x1, .f32⟩
  | .local _ .vmem, ⟨2, _⟩ => ⟨S1x1, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v5 : BitVec 32 := Scalar.muli arg0 c1024_i32
  v5
def k0_mult2 (i : grid0.Coords) : BitVec 32 :=
  let arg1 : BitVec 32 := BitVec.ofNat 32 (i 1).val
  let c1024_i32_2 : BitVec 32 := 1024#32
  let v7 : BitVec 32 := Scalar.muli arg1 c1024_i32_2
  v7
def k0_off1 (i : grid0.Coords) : Fin 2 → Nat :=
  let arg0 : BitVec 32 := BitVec.ofNat 32 (i 0).val
  let c1024_i32 : BitVec 32 := 1024#32
  let v5 : BitVec 32 := Scalar.muli arg0 c1024_i32
  let v6 : BitVec 32 := v5
  let v9 : Index := Scalar.indexCast v6
  let c0 : Index := 0#32
  ![v9.toNat, 0]
def k0_off2 (i : grid0.Coords) : Fin 2 → Nat :=
  let arg1 : BitVec 32 := BitVec.ofNat 32 (i 1).val
  let c1024_i32_2 : BitVec 32 := 1024#32
  let v7 : BitVec 32 := Scalar.muli arg1 c1024_i32_2
  let v8 : BitVec 32 := v7
  let v12 : Index := Scalar.indexCast v8
  let c0_3 : Index := 0#32
  ![v12.toNat, 0]
def k0_cond2 (i : grid0.Coords) : BitVec 1 :=
  let arg0 : BitVec 32 := BitVec.ofNat 32 (i 0).val
  let c7_i32 : BitVec 32 := 7#32
  let v48 : BitVec 1 := Scalar.cmpi .eq arg0 c7_i32
  let arg1 : BitVec 32 := BitVec.ofNat 32 (i 1).val
  let c7_i32_15 : BitVec 32 := 7#32
  let v49 : BitVec 1 := Scalar.cmpi .eq arg1 c7_i32_15
  let v50 : BitVec 1 := Scalar.andi v48 v49
  let v51 : BitVec 32 := Scalar.extui v50
  let c0_i32_16 : BitVec 32 := 0#32
  let v52 : BitVec 1 := Scalar.cmpi .ne v51 c0_i32_16
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

class Facts₀ : Prop where
  shapeCasts_S4x2048x512_S8192x512 : S4x2048x512.ShapeCasts S8192x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1024x512 : 0 < S1024x512.numel
  shapeCasts_S1024x512_S1024x512 : S1024x512.ShapeCasts S1024x512
  bitsLt_bf16_f32 : FTy.bits .bf16 < FTy.bits .f32
  reduces_S1024x512_S1024 : S1024x512.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x512.size a ≤ S8192x512.size a
  k0_off2_inb : ∀ i : grid0.Coords, ∀ a, (k0_off2 i) a + S1024x512.size a ≤ S8192x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .f32 = 32 ∨ (Rect.block (s := S8192x512) S8192x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4x2048x512 : Shape := ⟨3, ![4, 2048, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S512x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  shapeCasts_S4x2048x512_S8192x512 : S4x2048x512.ShapeCasts S8192x512
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.TilePieces.lean ====
/-
  What one run of the kernel body leaves behind, in each of its three cases, as values.

  The body reads the band of 1024 rows starting at row 1024 * i₀ and the band starting at row 1024 * i₁ of the resident
  array x, forms the tile's number T from them (the payload of the two bands), and adds T to the 1 × 1 accumulator:
    * at the first grid point the accumulator is first set to zero, so it is left at  zero + T;
    * at every other point it is left at  (what the point before left) + T;
    * at the last point, moreover, the 1 × 1 output block is set to the new accumulator times the scale constant.
  Each store covers its whole 1 × 1 buffer, so what a buffer holds afterwards is the last store's payload, and a load
  after a store reads that payload.
-/
import proofs.«129050_j7378753815129_2_alg».proof.Proof.Gen.KernelIdeal.Frame
import Idealize.ShloMosaic.Lib.Pipeline.Value
import Idealize.ShloMosaic.Lib.Tactic

set_option pp.deepTerms false
set_option pp.maxSteps 5000

noncomputable section

open Idealize.ShloMosaic Idealize.ShloMosaic.TcCoe Idealize.SL.Sem

namespace Cert.KernelIdeal.Tile

open Cert.KernelIdeal Cert.KernelIdeal.Gen

variable {F : FTy → Type} [FloatOps F]

theorem zero_offsets : (![0, 0] : Fin 2 → Nat) = fun _ => 0 := funext fun a => by fin_cases a <;> rfl

/-- The band of 1024 rows of `x` the body's first load reads at grid coordinates `i`. -/
def bandA (i : grid0.Coords) (x : Vec F S8192x512 .f32) : Vec F S1024x512 .f32 :=
  View.ld x (Rect.unit (s := S8192x512) (k0_off1 i) S1024x512.size (k0_off1_inb i))

/-- The band its second load reads. -/
def bandB (i : grid0.Coords) (x : Vec F S8192x512 .f32) : Vec F S1024x512 .f32 :=
  View.ld x (Rect.unit (s := S8192x512) (k0_off2 i) S1024x512.size (k0_off2_inb i))

/-- The accumulator after the body, from the resident array and the accumulator before: the old value plus the tile's number. -/
def accAfter (i : grid0.Coords) (x : Vec F S8192x512 .f32) (acc : Vec F S1x1 .f32) : Vec F S1x1 .f32 :=
  k0_pay1 (k0_pay4 (bandA i x) (bandB i x)) acc

/-- FIRST POINT: the accumulator is zeroed, read back, and left at zero plus the tile's number. -/
theorem acc_first (c : Dev nD) (i : grid0.Coords) (a2 : Memref sig .tc .vmem S8192x512 .f32) (h2 : a2.IsWhole)
    (a3 : Memref sig .tc .vmem S1x1 .f32) (h3 : a3.IsWhole) (a4 : Memref sig .tc .vmem S1x1 .f32) (h4 : a4.IsWhole)
    (hc0 : cond0_0 i) (hc1 : ¬cond0_1 i) (x : Vec F S8192x512 .f32) :
    sout0_A_0 c i a2 h2 a3 h3 a4 h4 hc0 hc1 x = accAfter i x k0_pay3 := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S1x1) zero_offsets, View.readCov_unit_zero (S := S1x1) _ zero_offsets]
  simp only [View.readAt_eq_ld, h2.read_unread]
  rfl

/-- A MIDDLE POINT: the accumulator is left at what it held plus the tile's number. -/
theorem acc_middle (c : Dev nD) (i : grid0.Coords) (a2 : Memref sig .tc .vmem S8192x512 .f32) (h2 : a2.IsWhole)
    (a3 : Memref sig .tc .vmem S1x1 .f32) (h3 : a3.IsWhole) (a4 : Memref sig .tc .vmem S1x1 .f32) (h4 : a4.IsWhole)
    (hc0 : ¬cond0_0 i) (hc1 : ¬cond0_1 i) (x : Vec F S8192x512 .f32) (acc : Vec F S1x1 .f32) :
    sout0_B_0 c i a2 h2 a3 h3 a4 h4 hc0 hc1 x acc = accAfter i x acc := by
  unfold sout0_B_0
  rw [View.read_writes_eq_canon _ _ _ (scover0_B_0 c i a2 h2 a3 h3 a4 h4 hc0 hc1 x acc)]
  unfold kernelRun0_B
  dsimp only
  sl_unfold_words
  rw [View.canon_unit_zero (S := S1x1) zero_offsets]
  simp only [View.readAt_eq_ld, h2.read_unread, h4.read_unread, View.ld_unit_zero (S := S1x1) zero_offsets]
  rfl

/-- THE LAST POINT: the accumulator likewise, -/
theorem acc_last (c : Dev nD) (i : grid0.Coords) (a2 : Memref sig .tc .vmem S8192x512 .f32) (h2 : a2.IsWhole)
    (a3 : Memref sig .tc .vmem S1x1 .f32) (h3 : a3.IsWhole) (a4 : Memref sig .tc .vmem S1x1 .f32) (h4 : a4.IsWhole)
    (hc0 : ¬cond0_0 i) (hc1 : cond0_1 i) (x : Vec F S8192x512 .f32) (acc : Vec F S1x1 .f32) :
    sout0_C_0 c i a2 h2 a3 h3 a4 h4 hc0 hc1 x acc = accAfter i x acc := by
  unfold sout0_C_0
  rw [View.read_writes_eq_canon _ _ _ (scover0_C_0 c i a2 h2 a3 h3 a4 h4 hc0 hc1 x acc)]
  unfold kernelRun0_C
  dsimp only
  sl_unfold_words
  rw [View.canon_unit_zero (S := S1x1) zero_offsets]
  simp only [View.readAt_eq_ld, h2.read_unread, h4.read_unread, View.ld_unit_zero (S := S1x1) zero_offsets]
  rfl

/-- and the output block is set to the new accumulator, scaled. -/
theorem out_last (c : Dev nD) (i : grid0.Coords) (a2 : Memref sig .tc .vmem S8192x512 .f32) (h2 : a2.IsWhole)
    (a3 : Memref sig .tc .vmem S1x1 .f32) (h3 : a3.IsWhole) (a4 : Memref sig .tc .vmem S1x1 .f32) (h4 : a4.IsWhole)
    (hc0 : ¬cond0_0 i) (hc1 : cond0_1 i) (x : Vec F S8192x512 .f32) (acc : Vec F S1x1 .f32) :
    out0_C_1 c i a2 h2 a3 h3 a4 h4 hc0 hc1 x acc = k0_pay2 (accAfter i x acc) := by
  unfold out0_C_1
  rw [View.read_writes_eq_canon _ _ _ (cover0_C_1 c i a2 h2 a3 h3 a4 h4 hc0 hc1 x acc)]
  unfold kernelRun0_C
  dsimp only
  sl_unfold_words
  rw [View.canon_unit_zero (S := S1x1) zero_offsets, View.readCov_unit_zero (S := S1x1) _ zero_offsets]
  simp only [View.readAt_eq_ld, h2.read_unread, h4.read_unread, View.ld_unit_zero (S := S1x1) zero_offsets]
  rfl

end Cert.KernelIdeal.Tile

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.TilePayload.lean ====
/-
  What the kernel body computes from two bands of rows, over the extended reals.

  The body loads a band A of 1024 rows (512 entries each) and a band B of 1024 rows, and forms one number:
    for rows p of A and q of B,  e[p, q] = exp (sqrt (max (|A_p|^2 + |B_q|^2 - 2 * <A_p, B_q>) 0) * (-c)),
    then the row sums Σ_q e[p, q], then the sum of those over p.
  Here |A_p|^2 is the sum of the squares along row p (a lane reduction, kept as a column [1024, 1] and repeated across
  the columns), |B_q|^2 the same for B (kept as a column, turned into a row [1, 1024] and repeated down the rows), and
  <A_p, B_q> the matrix product of A with B transposed, accumulated into zero.  A change of float format is the
  identity on the extended reals, so the bf16 operands of the product are the bands themselves.
-/
import proofs.«129050_j7378753815129_2_alg».proof.Proof.Gen.KernelIdeal.Skeleton
import proofs.«129050_j7378753815129_2_alg».proof.Proof.LibColumnLayout
import proofs.«129050_j7378753815129_2_alg».proof.Proof.LibReduceLayout
import Idealize.ShloMosaic.Lib.ValueIdx
import Idealize.ShloMosaic.Lib.ValueLayout
import Idealize.ShloMosaic.Lib.Pipeline.Value
import Idealize.ShloMosaic.PureOps.Ideal.Laws

set_option pp.deepTerms false
set_option pp.maxSteps 5000

noncomputable section

namespace Cert.KernelIdeal.Tile

open Cert.KernelIdeal Cert.KernelIdeal.Gen Idealize.ShloMosaic Idealize.ShloMosaic.ValueIdx
open Cert.Lib.ColumnLayout Cert.Lib.ReduceLayout

/-- The product's left operand index: its row coordinate is the output's row, -/
theorem lhs_row (i : S1024x1024.Idx) (u : dot_S1024x512_S1024x512_S1024x1024_1_1_0_0_n_n.contr.Idx) :
    (dot_S1024x512_S1024x512_S1024x1024_1_1_0_0_n_n.lhsIdx i u 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
/-- its column coordinate the contracted one. -/
theorem lhs_col (i : S1024x1024.Idx) (u : dot_S1024x512_S1024x512_S1024x1024_1_1_0_0_n_n.contr.Idx) :
    (dot_S1024x512_S1024x512_S1024x1024_1_1_0_0_n_n.lhsIdx i u 1).val = (u ⟨0, by decide⟩).val :=
  dot_S1024x512_S1024x512_S1024x1024_1_1_0_0_n_n.lhsIdx_val_of_single rfl i u
/-- The right operand index: its row coordinate is the output's column (the right operand enters transposed), -/
theorem rhs_row (i : S1024x1024.Idx) (u : dot_S1024x512_S1024x512_S1024x1024_1_1_0_0_n_n.contr.Idx) :
    (dot_S1024x512_S1024x512_S1024x1024_1_1_0_0_n_n.rhsIdx i u 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
/-- its column coordinate the contracted one. -/
theorem rhs_col (i : S1024x1024.Idx) (u : dot_S1024x512_S1024x512_S1024x1024_1_1_0_0_n_n.contr.Idx) :
    (dot_S1024x512_S1024x512_S1024x1024_1_1_0_0_n_n.rhsIdx i u 1).val = (u ⟨0, by decide⟩).val :=
  dot_S1024x512_S1024x512_S1024x1024_1_1_0_0_n_n.rhsIdx_val_of_single rfl i u

/-- The product of band A with band B transposed, accumulated into zero, read at `(p, q)`: the inner product of row `p`
    of A with row `q` of B. -/
theorem bandProduct_apply (A B : FVec Ideal S1024x512 .f32) (p q : Fin 1024) :
    matmul dot_S1024x512_S1024x512_S1024x1024_1_1_0_0_n_n none (truncf .bf16 A bitsLt_bf16_f32) (truncf .bf16 B bitsLt_bf16_f32)
        (constant S1024x1024 .f32 0x00000000#32) (ix2 p q)
      = ∑ k : Fin 512, A (ix2 p k) * B (ix2 q k) := by
  simp only [matmul]
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q)
      ((contrEquiv1 dot_S1024x512_S1024x512_S1024x1024_1_1_0_0_n_n 512 rfl rfl).symm k) = ix2 p k :=
    funext fun a => Fin.ext (by
      match a with
      | ⟨0, _⟩ => exact lhs_row _ _
      | ⟨1, _⟩ => exact (lhs_col _ _).trans hk)
  have er : dot_S1024x512_S1024x512_S1024x1024_1_1_0_0_n_n.rhsIdx (ix2 p q)
      ((contrEquiv1 dot_S1024x512_S1024x512_S1024x1024_1_1_0_0_n_n 512 rfl rfl).symm k) = ix2 q k :=
    funext fun a => Fin.ext (by
      match a with
      | ⟨0, _⟩ => exact rhs_row _ _
      | ⟨1, _⟩ => exact (rhs_col _ _).trans hk)
  rw [el, er]
  rfl

/-- The decayed distance between row `p` of band A and row `q` of band B. -/
def bandDecay (A B : FVec Ideal S1024x512 .f32) (p q : Fin 1024) : EReal :=
  Ideal.exp (Ideal.sqrt (max ((∑ k : Fin 512, A (ix2 p k) * A (ix2 p k)) + (∑ k : Fin 512, B (ix2 q k) * B (ix2 q k))
      - Ideal.ofBits .f32 0x40000000#32 * ∑ k : Fin 512, A (ix2 p k) * B (ix2 q k)) (Ideal.ofBits .f32 0x00000000#32))
    * Ideal.ofBits .f32 0xBDCCCCCD#32)

/-- The body's one number: the sum over the rows `p` of A and `q` of B of their decayed distance. -/
theorem tilePayload_apply (A B : Vec Ideal S1024x512 .f32) (y : S1.Idx) :
    k0_pay4 (F := Ideal) A B y = ∑ p : Fin 1024, ∑ q : Fin 1024, bandDecay A B p q := by
  unfold k0_pay4
  dsimp only
  refine (sum_axis0_col_apply _ _ _ _ _ y).trans ?_
  refine Finset.sum_congr rfl fun p _ => ?_
  refine (shapeCast_a_a1_apply _ _ p (0 : Fin 1)).trans ?_
  refine (sum_axis1_apply _ _ _ _ _ p).trans ?_
  refine Finset.sum_congr rfl fun q _ => ?_
  unfold bandDecay
  refine congrArg Ideal.exp (congrArg (· * Ideal.ofBits .f32 0xBDCCCCCD#32) (congrArg Ideal.sqrt
    (congrArg (max · (Ideal.ofBits .f32 0x00000000#32)) ?_)))
  refine congrArg₂ (· - ·) (congrArg₂ (· + ·) ?_ ?_) (congrArg (Ideal.ofBits .f32 0x40000000#32 * ·) ?_)
  · refine (broadcastTo_a1_ab_apply _ _ p q).trans ?_
    refine (shapeCast_a_a1_apply _ _ p (0 : Fin 1)).trans ?_
    refine (sum_axis1_apply _ _ _ _ _ p).trans ?_
    rw [shapeCast_self]
    rfl
  · refine (broadcastTo_transpose_col_apply _ _ _ p q).trans ?_
    refine (shapeCast_a_a1_apply _ _ q (0 : Fin 1)).trans ?_
    refine (sum_axis1_apply _ _ _ _ _ q).trans ?_
    rw [shapeCast_self]
    rfl
  · refine (bandProduct_apply _ _ p q).trans ?_
    rw [shapeCast_self, shapeCast_self]

end Cert.KernelIdeal.Tile

end
-- ==== Proof.PairDecay.lean ====
/-
  The quantity both programs compute, over the extended reals.

  The argument is an array x of 8192 rows of 512 entries.  For rows a, b:
    sqNorm x a   = Σ_k x[a,k]^2,            gram x a b = Σ_k x[a,k] * x[b,k],
    dist x a b   = sqrt (max (sqNorm a + sqNorm b - 2 * gram a b) 0),
    decay x a b  = exp (dist a b * (-c)),    c the f32 nearest one tenth (its negative's pattern is kept as a pattern here).
  The loss is Σ_{a,b} decay a b, scaled.  The 8192 rows are cut into 8 bands of 1024 (row 1024 * i + p is row p of
  band i); a TILE (i, j) is the pairs whose first row is in band i and second in band j, and `tileSum x i j` is the sum
  of decay over it.  Visiting the 64 tiles in row-major order and adding each tile's sum to a running total ends at the
  sum over all pairs: only commutativity and associativity of + are used, which hold on the extended reals at the
  infinities too, so no finiteness of x is needed.
-/
import Idealize.ShloMosaic.Lib.ValueIdx
import Idealize.ShloMosaic.PureOps.Ideal.Laws

noncomputable section

namespace Cert.PairDecay

open Idealize.ShloMosaic Idealize.ShloMosaic.ValueIdx

/-- The flattened argument: 8192 rows of 512 entries. -/
abbrev Rows : Shape := ⟨2, ![8192, 512]⟩

variable (x : Rows.Idx → EReal)

/-- The squared length of row `a`. -/
def sqNorm (a : Fin 8192) : EReal := ∑ k : Fin 512, x (ix2 a k) * x (ix2 a k)

/-- The inner product of rows `a` and `b`. -/
def gram (a b : Fin 8192) : EReal := ∑ k : Fin 512, x (ix2 a k) * x (ix2 b k)

/-- The distance between rows `a` and `b`: the root of the squared distance clipped at zero. -/
def dist (a b : Fin 8192) : EReal :=
  Ideal.sqrt (max (sqNorm x a + sqNorm x b - Ideal.ofBits .f32 0x40000000#32 * gram x a b) (Ideal.ofBits .f32 0x00000000#32))

/-- The decayed distance: e to the power of minus a tenth of the distance. -/
def decay (a b : Fin 8192) : EReal := Ideal.exp (dist x a b * Ideal.ofBits .f32 0xBDCCCCCD#32)

/-- Row `p` of band `i`. -/
def bandRow (i : Fin 8) (p : Fin 1024) : Fin 8192 := ⟨1024 * i.val + p.val, by omega⟩

/-- The sum of the decayed distances over tile `(i, j)`. -/
def tileSum (i j : Fin 8) : EReal := ∑ p : Fin 1024, ∑ q : Fin 1024, decay x (bandRow i p) (bandRow j q)

/-- A sum over the 8192 rows is the sum over the bands of the sums over each band's rows. -/
theorem sum_bandRow {M : Type*} [AddCommMonoid M] (f : Fin 8192 → M) :
    ∑ a, f a = ∑ i : Fin 8, ∑ p : Fin 1024, f (bandRow i p) := by
  rw [← Equiv.sum_comp (finProdFinEquiv (m := 8) (n := 1024)) f, Fintype.sum_prod_type]
  refine Finset.sum_congr rfl fun i _ => Finset.sum_congr rfl fun p _ => congrArg f (Fin.ext ?_)
  show p.val + 1024 * i.val = 1024 * i.val + p.val
  omega

/-- The tiles' sums add up to the sum over all ordered pairs of rows. -/
theorem sum_tiles : ∑ i : Fin 8, ∑ j : Fin 8, tileSum x i j = ∑ a : Fin 8192, ∑ b : Fin 8192, decay x a b := by
  rw [sum_bandRow (fun a => ∑ b : Fin 8192, decay x a b)]
  refine Finset.sum_congr rfl fun i _ => ?_
  unfold tileSum
  rw [Finset.sum_comm]
  refine Finset.sum_congr rfl fun p _ => ?_
  exact (sum_bandRow (fun b => decay x (bandRow i p) b)).symm

/-- The band of the first rows of the tile visited at step `n` of the row-major walk over the 8 × 8 tiles. -/
def stepRow (n : ℕ) : Fin 8 := ⟨n / 8 % 8, Nat.mod_lt _ (by decide)⟩
/-- The band of its second rows. -/
def stepCol (n : ℕ) : Fin 8 := ⟨n % 8, Nat.mod_lt _ (by decide)⟩

/-- The running total after step `n`: the sums of the tiles visited so far. -/
def running (n : ℕ) : EReal := ∑ k ∈ Finset.range (n + 1), tileSum x (stepRow k) (stepCol k)

theorem running_zero : running x 0 = tileSum x (stepRow 0) (stepCol 0) := by
  unfold running; rw [Finset.sum_range_one]

theorem running_succ (n : ℕ) : running x (n + 1) = running x n + tileSum x (stepRow (n + 1)) (stepCol (n + 1)) := by
  unfold running; rw [Finset.sum_range_succ]

/-- After the 64th step the running total is the sum over all ordered pairs of rows. -/
theorem running_last : running x 63 = ∑ a : Fin 8192, ∑ b : Fin 8192, decay x a b := by
  rw [← sum_tiles]
  unfold running
  rw [Finset.sum_range (fun k => tileSum x (stepRow k) (stepCol k)),
    ← Equiv.sum_comp (finProdFinEquiv (m := 8) (n := 8)) (fun t : Fin 64 => tileSum x (stepRow t.val) (stepCol t.val)),
    Fintype.sum_prod_type]
  refine Finset.sum_congr rfl fun i _ => Finset.sum_congr rfl fun j _ => ?_
  have hi : stepRow (finProdFinEquiv (m := 8) (n := 8) (i, j)).val = i := Fin.ext (by
    show (j.val + 8 * i.val) / 8 % 8 = i.val
    have := i.isLt; have := j.isLt; omega)
  have hj : stepCol (finProdFinEquiv (m := 8) (n := 8) (i, j)).val = j := Fin.ext (by
    show (j.val + 8 * i.val) % 8 = j.val
    have := i.isLt; have := j.isLt; omega)
  show tileSum x (stepRow (finProdFinEquiv (m := 8) (n := 8) (i, j)).val) (stepCol (finProdFinEquiv (m := 8) (n := 8) (i, j)).val) = _
  rw [hi, hj]

end Cert.PairDecay

end
-- ==== Proof.TileRun.lean ====
/-
  The accumulator across the grid, over the extended reals.

  The grid's 64 points are the 8 × 8 tiles in row-major order: point t has coordinates (t / 8, t % 8), loads the band
  of rows 1024 * (t / 8) + p and the band of rows 1024 * (t % 8) + q of the resident array X (the whole array is the
  input window's one block, so every point finds all of X in its staging buffer), and its number is the sum of the
  decayed distances over tile (t / 8, t % 8).  By induction on the point the accumulator after point n is the running
  total of the tiles visited so far; after the last point it is the sum over all ordered pairs of rows, and the output
  block holds that sum times the scale constant.
-/
import proofs.«129050_j7378753815129_2_alg».proof.Proof.Gen.KernelIdeal.Frame
import proofs.«129050_j7378753815129_2_alg».proof.Proof.TilePieces
import proofs.«129050_j7378753815129_2_alg».proof.Proof.TilePayload
import proofs.«129050_j7378753815129_2_alg».proof.Proof.PairDecay
import Idealize.ShloMosaic.Lib.Pipeline.Value

set_option pp.deepTerms false
set_option pp.maxSteps 5000

noncomputable section

open Idealize.ShloMosaic Idealize.ShloMosaic.TcCoe Idealize.SL.Sem

namespace Cert.KernelIdeal.Tile

open Cert.KernelIdeal Cert.KernelIdeal.Gen Idealize.ShloMosaic.ValueIdx Cert.PairDecay

/-! ## Any float values: each point's accumulator from the one before -/

section steps

variable {F : FTy → Type} [FloatOps F]
variable (m : (ℓ : Loc nD τ sig) → Buf (Elt F) ℓ)

/-- The input window's block index is (0, 0) at every point. -/
theorem blockIndex_zero : ∀ t : Fin cfg0.N, win0_0.index t 0 = 0 ∧ win0_0.index t 1 = 0 :=
  (by decide +kernel : ∀ t : Fin grid0.N, win0_0.index t 0 = 0 ∧ win0_0.index t 1 = 0)

/-- So the block a point finds in the input's staging buffer is the whole flattened array. -/
theorem iblk_eq (c : Dev nD) (t : Fin cfg0.N) : (iblk m c 0 t : Vec F S8192x512 .f32) = V m c main_v0 := by
  funext j
  unfold iblk
  rw [View.read_apply]
  show V m c main_v0 _ = V m c main_v0 j
  refine congrArg (V m c main_v0) (funext fun a => Fin.ext ?_)
  match a with
  | ⟨0, _⟩ =>
    show win0_0.index t 0 * 8192 + 1 * (j 0).val = (j 0).val
    rw [(blockIndex_zero t).1]; omega
  | ⟨1, _⟩ =>
    show win0_0.index t 1 * 512 + 1 * (j 1).val = (j 1).val
    rw [(blockIndex_zero t).2]; omega

/-- After the first point: zero plus the first tile's number. -/
theorem step_first (c : Dev nD) (h : 0 < cfg0.N) :
    (outsAt0 m c 0 h).2 = accAfter (grid0.coords ⟨0, h⟩) (V m c main_v0) k0_pay3 := by
  rw [outsAt0_A m c ⟨0, h⟩ rfl (by show ¬(0 % 64 = 63); decide)]
  dsimp only
  refine (acc_first c (grid0.coords ⟨0, h⟩) (ms0_0 ⟨0, h⟩) (hs0_0 ⟨0, h⟩) (ms0_1 ⟨0, h⟩) (hs0_1 ⟨0, h⟩) scM0_0
    (Memref.isWhole_whole _) _ _ (iblk m c 0 ⟨0, h⟩)).trans ?_
  rw [iblk_eq]

/-- After a middle point: what the point before left plus this tile's number. -/
theorem step_middle (c : Dev nD) (t : Fin cfg0.N) (h0 : ¬t.val % 64 = 0) (h1 : ¬t.val % 64 = 63) :
    (outsAt0 m c t.val t.isLt).2
      = accAfter (grid0.coords t) (V m c main_v0) (outsAt0 m c (t.val - 1) (Nat.lt_of_le_of_lt (Nat.sub_le _ _) t.isLt)).2 := by
  rw [outsAt0_B m c t h0 h1]
  dsimp only
  refine (acc_middle c (grid0.coords t) (ms0_0 t) (hs0_0 t) (ms0_1 t) (hs0_1 t) scM0_0
    (Memref.isWhole_whole _) _ _ (iblk m c 0 t) _).trans ?_
  rw [iblk_eq]

/-- After the last point: the same for the accumulator, -/
theorem step_last (c : Dev nD) (t : Fin cfg0.N) (h0 : ¬t.val % 64 = 0) (h1 : t.val % 64 = 63) :
    (outsAt0 m c t.val t.isLt).2
      = accAfter (grid0.coords t) (V m c main_v0) (outsAt0 m c (t.val - 1) (Nat.lt_of_le_of_lt (Nat.sub_le _ _) t.isLt)).2 := by
  rw [outsAt0_C m c t h0 h1]
  dsimp only
  refine (acc_last c (grid0.coords t) (ms0_0 t) (hs0_0 t) (ms0_1 t) (hs0_1 t) scM0_0
    (Memref.isWhole_whole _) _ _ (iblk m c 0 t) _).trans ?_
  rw [iblk_eq]

/-- and the output block holds the new accumulator, scaled. -/
theorem step_last_out (c : Dev nD) (t : Fin cfg0.N) (h0 : ¬t.val % 64 = 0) (h1 : t.val % 64 = 63) :
    (outsAt0 m c t.val t.isLt).1
      = k0_pay2 (accAfter (grid0.coords t) (V m c main_v0) (outsAt0 m c (t.val - 1) (Nat.lt_of_le_of_lt (Nat.sub_le _ _) t.isLt)).2) := by
  rw [outsAt0_C m c t h0 h1]
  dsimp only
  refine (out_last c (grid0.coords t) (ms0_0 t) (hs0_0 t) (ms0_1 t) (hs0_1 t) scM0_0
    (Memref.isWhole_whole _) _ _ (iblk m c 0 t) _).trans ?_
  rw [iblk_eq]

end steps

/-! ## The extended reals: the accumulator is the running total of the tiles -/

/-- Point `t`'s grid coordinates are (t / 8, t % 8). -/
theorem coords_eq : ∀ t : Fin cfg0.N, (grid0.coords t 0).val = t.val / 8 % 8 ∧ (grid0.coords t 1).val = t.val % 8 :=
  (by decide +kernel : ∀ t : Fin grid0.N, (grid0.coords t 0).val = t.val / 8 % 8 ∧ (grid0.coords t 1).val = t.val % 8)

/-- The first band a point loads is band `t / 8` of the array: its row `p` is row `1024 * (t / 8) + p`. -/
theorem bandA_apply (x : Vec Ideal S8192x512 .f32) (t : Fin cfg0.N) (p : Fin 1024) (k : Fin 512) :
    bandA (grid0.coords t) x (ix2 p k) = x (ix2 (bandRow (stepRow t.val) p) k) := by
  unfold bandA
  show x ((Rect.unit (s := S8192x512) (k0_off1 (grid0.coords t)) S1024x512.size (k0_off1_inb (grid0.coords t))).idx (ix2 p k)) = _
  refine congrArg x (funext fun a => Fin.ext ?_)
  match a with
  | ⟨0, _⟩ =>
    show k0_off1 (grid0.coords t) 0 + 1 * p.val = 1024 * (t.val / 8 % 8) + p.val
    rw [k0_off1_eq]
    show 1024 * (grid0.coords t 0).val + 1 * p.val = _
    rw [(coords_eq t).1]; omega
  | ⟨1, _⟩ =>
    show k0_off1 (grid0.coords t) 1 + 1 * k.val = k.val
    rw [k0_off1_eq]
    show 0 + 1 * k.val = k.val
    omega

/-- The second is band `t % 8`. -/
theorem bandB_apply (x : Vec Ideal S8192x512 .f32) (t : Fin cfg0.N) (q : Fin 1024) (k : Fin 512) :
    bandB (grid0.coords t) x (ix2 q k) = x (ix2 (bandRow (stepCol t.val) q) k) := by
  unfold bandB
  show x ((Rect.unit (s := S8192x512) (k0_off2 (grid0.coords t)) S1024x512.size (k0_off2_inb (grid0.coords t))).idx (ix2 q k)) = _
  refine congrArg x (funext fun a => Fin.ext ?_)
  match a with
  | ⟨0, _⟩ =>
    show k0_off2 (grid0.coords t) 0 + 1 * q.val = 1024 * (t.val % 8) + q.val
    rw [k0_off2_eq]
    show 1024 * (grid0.coords t 1).val + 1 * q.val = _
    rw [(coords_eq t).2]; omega
  | ⟨1, _⟩ =>
    show k0_off2 (grid0.coords t) 1 + 1 * k.val = k.val
    rw [k0_off2_eq]
    show 0 + 1 * k.val = k.val
    omega

/-- A point's number is the sum of the decayed distances over its tile. -/
theorem tileNumber_eq (x : Vec Ideal S8192x512 .f32) (t : Fin cfg0.N) (y : S1.Idx) :
    k0_pay4 (F := Ideal) (bandA (grid0.coords t) x) (bandB (grid0.coords t) x) y = tileSum x (stepRow t.val) (stepCol t.val) := by
  rw [tilePayload_apply]
  unfold tileSum
  refine Finset.sum_congr rfl fun p _ => Finset.sum_congr rfl fun q _ => ?_
  unfold bandDecay decay Cert.PairDecay.dist sqNorm gram
  simp only [bandA_apply, bandB_apply]

/-- Adding a point's number to an accumulator that holds `s` leaves `s` plus the tile's sum. -/
theorem accAfter_eq (x : Vec Ideal S8192x512 .f32) (t : Fin cfg0.N) (acc : Vec Ideal S1x1 .f32) (s : EReal)
    (hacc : acc = fun _ => s) :
    accAfter (grid0.coords t) x acc = fun _ => s + tileSum x (stepRow t.val) (stepCol t.val) := by
  subst hacc
  funext y
  unfold accAfter k0_pay1
  rw [shapeCast_self]
  show s + shapeCast S1x1 (k0_pay4 (F := Ideal) (bandA (grid0.coords t) x) (bandB (grid0.coords t) x)) shapeCasts_S1_S1x1 y = _
  unfold shapeCast
  rw [tileNumber_eq]

/-- The zero the first point stores. -/
theorem zeroBlock_eq : (k0_pay3 (F := Ideal)) = fun _ => (0 : EReal) := by
  funext y
  unfold k0_pay3
  rw [shapeCast_self]
  exact Ideal.ofBits_zero_f32

variable (m : (ℓ : Loc nD τ sig) → Buf (Elt Ideal) ℓ)

/-- The accumulator after point `n` is the running total of the tiles visited so far. -/
theorem acc_eq (c : Dev nD) : ∀ (n : ℕ) (h : n < cfg0.N),
    (outsAt0 m c n h).2 = fun _ => running (V m c main_v0) n
  | 0, h => by
    refine (step_first m c h).trans ((accAfter_eq (V m c main_v0) ⟨0, h⟩ (k0_pay3 (F := Ideal)) (0 : EReal) zeroBlock_eq).trans ?_)
    rw [running_zero, zero_add]
  | n + 1, h => by
    have hN : cfg0.N = 64 := N_0
    have h0 : ¬(⟨n + 1, h⟩ : Fin cfg0.N).val % 64 = 0 := by dsimp only; omega
    have ih := acc_eq c n (Nat.lt_of_succ_lt h)
    by_cases h1 : (⟨n + 1, h⟩ : Fin cfg0.N).val % 64 = 63
    · refine (step_last m c ⟨n + 1, h⟩ h0 h1).trans ((accAfter_eq (V m c main_v0) ⟨n + 1, h⟩ _ _ ih).trans ?_)
      rw [running_succ]
    · refine (step_middle m c ⟨n + 1, h⟩ h0 h1).trans ((accAfter_eq (V m c main_v0) ⟨n + 1, h⟩ _ _ ih).trans ?_)
      rw [running_succ]

/-- After the last point the output block holds the sum over all ordered pairs of rows, times the scale constant. -/
theorem out_eq (c : Dev nD) (h : 63 < cfg0.N) :
    (outsAt0 m c 63 h).1
      = fun _ => (∑ a : Fin 8192, ∑ b : Fin 8192, decay (V m c main_v0) a b) * Ideal.ofBits .f32 0x30CCCCCD#32 := by
  refine (step_last_out m c ⟨63, h⟩ (by show ¬(63 % 64 = 0); decide) (by show 63 % 64 = 63; decide)).trans ?_
  have hacc : accAfter (grid0.coords ⟨63, h⟩) (V m c main_v0) (outsAt0 m c 62 (Nat.lt_of_succ_lt h)).2
      = fun _ => ∑ a : Fin 8192, ∑ b : Fin 8192, decay (V m c main_v0) a b := by
    refine (accAfter_eq (V m c main_v0) ⟨63, h⟩ _ _ (acc_eq m c 62 (Nat.lt_of_succ_lt h))).trans ?_
    have e : running (V m c main_v0) 63
        = running (V m c main_v0) 62 + tileSum (V m c main_v0) (stepRow 63) (stepCol 63) := running_succ _ 62
    rw [← running_last, e]
  refine (congrArg k0_pay2 hacc).trans ?_
  rfl

end Cert.KernelIdeal.Tile

end
-- ==== Proof.KernelTail.lean ====
/-
  The host lines after the region, read back: whatever number s the 1 × 1 result array holds when the region ends, the
  first result is that array reshaped to a scalar, so it is s, and the second is one half times the first.
-/
import proofs.«129050_j7378753815129_2_alg».proof.Proof.Gen.KernelIdeal.Frame
import Idealize.ShloMosaic.Lib.Pipeline.Value
import Idealize.ShloMosaic.Lib.StableHlo.Run
import Idealize.ShloMosaic.PureOps.Ideal.Laws

set_option pp.deepTerms false
set_option pp.maxSteps 5000

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable (m : (ℓ : Loc nD τ sig) → Buf (Elt Ideal) ℓ)

/-- The result array as the host lines after the region find it. -/
theorem tail_array (c : Dev nD) (s : EReal) (hA : (dats m 0 c).arrAt 1 cfg0.N = fun _ => s) :
    Pipeline.withArrays spec0 c (V0 m c) (fun w => (dats m 0 c).arrAt w cfg0.N) (Proc.devRef .tc main_v1) = fun _ => s :=
  (Pipeline.withArrays_arr spec0 launch0.win.arr_inj c _ _ 1).trans hA

/-- The first result: the result array reshaped to a scalar. -/
theorem tail_first (c : Dev nD) (s : EReal) (hA : (dats m 0 c).arrAt 1 cfg0.N = fun _ => s) :
    Pipeline.afterTail₀ cfgs (dats m) 0 (V0 m) [hostOps1] c main_v2 = fun _ => s := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = fun _ => s from tail_array m c s hA]
  rfl

/-- The second result: one half times the first. -/
theorem tail_second (c : Dev nD) (s : EReal) (hA : (dats m 0 c).arrAt 1 cfg0.N = fun _ => s) :
    Pipeline.afterTail₀ cfgs (dats m) 0 (V0 m) [hostOps1] c main_v3
      = mulf (constant (F := Ideal) S_ .f32 0x3F000000#32) (fun _ => s) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v1)
      = fun _ => s from tail_array m c s hA]
  rfl

end Cert.KernelIdeal.Tile

end
-- ==== Proof.KernelValue.lean ====
/-
  The kernel program's two results, over the extended reals.

  The output window's one 1 × 1 block is written back once, after the last grid point, with the sum over all ordered
  pairs of rows of the decayed distance times the scale constant; that block is the whole 1 × 1 result array.  The host
  lines after the region reshape it to a scalar (the first result) and multiply the scalar by one half (the second).
-/
import proofs.«129050_j7378753815129_2_alg».proof.Proof.Gen.KernelIdeal.Frame
import proofs.«129050_j7378753815129_2_alg».proof.Proof.TileRun
import proofs.«129050_j7378753815129_2_alg».proof.Proof.KernelTail
import Idealize.ShloMosaic.Lib.Pipeline.Value
import Idealize.ShloMosaic.Lib.StableHlo.Run

set_option pp.deepTerms false
set_option pp.maxSteps 5000

noncomputable section

open Idealize.ShloMosaic Idealize.ShloMosaic.TcCoe Idealize.SL.Sem
open Idealize.ShloMosaic.Pipeline (Dat)

namespace Cert.KernelIdeal.Tile

open Cert.KernelIdeal Cert.KernelIdeal.Gen Idealize.ShloMosaic.ValueIdx Cert.PairDecay

variable (m : (ℓ : Loc nD τ sig) → Buf (Elt Ideal) ℓ) (ρ : Dev nD → PrngReg)

/-- The sum over all ordered pairs of rows of the decayed distance, times the scale constant. -/
def scaledTotal (c : Dev nD) : EReal :=
  (∑ a : Fin 8192, ∑ b : Fin 8192, decay (V m c main_v0) a b) * Ideal.ofBits .f32 0x30CCCCCD#32

/-- The 1 × 1 result array holding it. -/
abbrev result (c : Dev nD) : Buf (Elt Ideal) ((c : Thread nD τ).loc main_v1) := fun _ => scaledTotal m c

/-- The last grid point. -/
abbrev lastPoint : Fin cfg0.N := ⟨63, by rw [show cfg0.N = 64 from N_0]; decide⟩

/-- The one write-back, after the last point, writes the scaled total. -/
theorem flushed_eq (c : Dev nD) (t : Fin cfg0.N) (hf : (cfg0.win 1).flush t = true) :
    (dats m 0 c).flushed 1 t = ((cfg0.win 1).blk t).view.read (Elt Ideal) (result m c) := by
  have hN : cfg0.N = 64 := N_0
  have h63 : t.val = 63 := by have := (flush0_1 t).mp hf; have := t.isLt; omega
  obtain rfl : t = lastPoint := Fin.ext h63
  show (cfg0.win 1).cut (grid0.coords lastPoint) ((dats m 0 c).after 1 lastPoint) = _
  rw [after0_1]
  show (cfg0.win 1).cut (grid0.coords lastPoint) (outsAt0 m c 63 lastPoint.isLt).1 = _
  rw [out_eq m c lastPoint.isLt]
  rfl

/-- So the result array ends holding it: the last point's block is the whole array. -/
theorem final_out (c : Dev nD) : (dats m 0 c).arrAt 1 cfg0.N = result m c :=
  (dats m 0 c).arrAt_eq_of_cover 1 (result m c) (flushed_eq m c) fun i =>
    ⟨lastPoint, (flush0_1 lastPoint).mpr rfl, by
      show i ∈ ((View.whole main_v1).slice (win0_1.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index lastPoint 0 * win0_1.size 0 ≤ (i 0 : Nat) ∧ (i 0 : Nat) < win0_1.index lastPoint 0 * win0_1.size 0 + win0_1.xsize (grid0.coords lastPoint) 0
        rw [show win0_1.index lastPoint 0 * win0_1.size 0 = 0 from by decide +kernel, show win0_1.xsize (grid0.coords lastPoint) 0 = 1 from by decide +kernel]; omega
      | ⟨1, _⟩ =>
        show win0_1.index lastPoint 1 * win0_1.size 1 ≤ (i 1 : Nat) ∧ (i 1 : Nat) < win0_1.index lastPoint 1 * win0_1.size 1 + win0_1.xsize (grid0.coords lastPoint) 1
        rw [show win0_1.index lastPoint 1 * win0_1.size 1 = 0 from by decide +kernel, show win0_1.xsize (grid0.coords lastPoint) 1 = 1 from by decide +kernel]; omega⟩

/-- The run, read: the first result at the scaled total, the second at one half times it, the argument unchanged. -/
theorem run : θ_run defs (onTc (τ := τ) (main (F := Ideal))) ⟨m, fun _ => 0, ρ⟩ fun r => ∀ c : Dev nD,
      r.2.mem ((c.tc : Thread nD τ).loc main_v2) = (fun _ => scaledTotal m c)
      ∧ r.2.mem ((c.tc : Thread nD τ).loc main_v3)
          = mulf (constant (F := Ideal) S_ .f32 0x3F000000#32) (fun _ => scaledTotal m c)
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans
        (tail_first m c _ (final_out m c)),
      ((h c).2 main_v3 (Pipeline.mem_restRefs_of main_v3 (by decide) (by decide))).trans
        (tail_second m c _ (final_out m c)),
      ((h c).2 main_arg0 (Pipeline.mem_restRefs_of main_arg0 (by decide) (by decide))).trans
        (W_main_arg0 m (dats m) c)⟩)
    (run_main m ρ)

end Cert.KernelIdeal.Tile

end
-- ==== Proof.RefSide.lean ====
/-
  The reference, read index by index over the extended reals.

  With X the argument flattened to 8192 rows of 512 entries, the reference forms for every ordered pair of rows (a, b)
    exp ((- sqrt (max (|X_a|^2 + |X_b|^2 - 2 * <X_a, X_b>) 0)) * c)
  (row sums of squares repeated along rows and along columns, the matrix product of X with its transpose), sums these
  over all pairs starting from zero, divides by the number of pairs 2^26 and multiplies by c.  The squared lengths
  arrive as "zero plus the sum", and zero is the additive unit.
-/
import proofs.«129050_j7378753815129_2_alg».proof.Defs
import proofs.«129050_j7378753815129_2_alg».proof.Proof.Gen.ReferenceIdeal.Run
import proofs.«129050_j7378753815129_2_alg».proof.Proof.Gen.ReferenceIdeal.Read
import proofs.«129050_j7378753815129_2_alg».proof.Proof.PairDecay

set_option pp.deepTerms false
set_option pp.maxSteps 5000

noncomputable section

namespace Cert.ReferenceIdeal.RefValue

open Cert.ReferenceIdeal Cert.ReferenceIdeal.Gen Cert.ReferenceIdeal.Read Cert.PairDecay
open Idealize.ShloMosaic Idealize.ShloMosaic.ValueIdx

/-- The decayed distance of rows `a` and `b`, as the reference spells it: the distance negated, times a tenth. -/
theorem pairTerm_apply (x0 : (⟨S4x2048x512, .f32⟩ : BufTy).Contents (Elt Ideal)) (a b : Fin 8192) :
    val_main_v19 (F := Ideal) x0 (ix2 a b)
      = Ideal.exp (-(Cert.PairDecay.dist (val_main_v0 (F := Ideal) x0) a b) * Ideal.ofBits .f32 0x3DCCCCCD#32) := by
  have ia : ∀ k : Fin 512, idx_main_v2 (idx_main_v3 (idx_main_v5 (ix2 a b))) k = ix2 a k := fun k =>
    funext fun d => Fin.ext (by match d with | ⟨0, _⟩ => rfl | ⟨1, _⟩ => rfl)
  have ib : ∀ k : Fin 512, idx_main_v2 (idx_main_v4 (idx_main_v6 (ix2 a b))) k = ix2 b k := fun k =>
    funext fun d => Fin.ext (by match d with | ⟨0, _⟩ => rfl | ⟨1, _⟩ => rfl)
  have il : ∀ k : Fin 512, lidx_main_v9 (ix2 a b) k = ix2 a k := fun k =>
    funext fun d => Fin.ext (by match d with | ⟨0, _⟩ => rfl | ⟨1, _⟩ => rfl)
  have ir : ∀ k : Fin 512, idx_main_v8 (ridx_main_v9 (ix2 a b) k) = ix2 b k := fun k =>
    funext fun d => Fin.ext (by match d with | ⟨0, _⟩ => rfl | ⟨1, _⟩ => rfl)
  rw [val_main_v19_apply, val_main_v18_apply, val_main_v16_apply, val_main_v15_apply, val_main_v14_apply,
    val_main_v12_apply, val_main_v7_apply, val_main_v5_apply, val_main_v3_apply, val_main_v2_apply,
    val_main_v6_apply, val_main_v4_apply, val_main_v2_apply, val_main_v11_apply, val_main_v10_apply,
    val_main_v9_apply, val_main_v13_apply, val_main_v17_apply]
  simp only [val_main_v1_apply, val_main_v8_apply, val_main_cst_apply, val_main_cst_0_apply, val_main_cst_1_apply,
    val_main_cst_2_apply, ia, ib, il, ir, Ideal.ofBits_def, Ideal.mulf_def, Ideal.addf_def, Ideal.subf_def,
    Ideal.maximumf_def, Ideal.hostUnary_exp_def, Ideal.hostUnary_sqrt_def, Ideal.hostNegf_def, Ideal.negf_def]
  unfold Cert.PairDecay.dist sqNorm gram
  rw [Ideal.ofBits_zero_f32, zero_add, zero_add]

/-- The reference's first result: zero plus the sum over all ordered pairs, over the number of pairs, times a tenth. -/
theorem loss_eq (x0 : (⟨S4x2048x512, .f32⟩ : BufTy).Contents (Elt Ideal)) :
    val_main_v22 (F := Ideal) x0 = fun _ =>
      Ideal.div (Ideal.ofBits .f32 0x00000000#32
          + ∑ a : Fin 8192, ∑ b : Fin 8192,
              Ideal.exp (-(Cert.PairDecay.dist (val_main_v0 (F := Ideal) x0) a b) * Ideal.ofBits .f32 0x3DCCCCCD#32))
        (Ideal.ofBits .f32 0x4C800000#32) * Ideal.ofBits .f32 0x3DCCCCCD#32 := by
  funext i
  rw [val_main_v22_apply, val_main_v21_apply, val_main_v20_apply, sum_idx2]
  simp only [pairTerm_apply, val_main_cst_3_apply, val_main_cst_4_apply, val_main_cst_5_apply, Ideal.ofBits_def,
    Ideal.mulf_def, Ideal.hostDivf_def]

end Cert.ReferenceIdeal.RefValue

end
-- ==== Proof.Consts.lean ====
/-
  The four float constants whose VALUES the two programs' agreement depends on, as the extended reals their f32 patterns
  denote.  With c = 13421773 / 2^27 (the f32 nearest to one tenth):
    0x3DCCCCCD denotes c, 0xBDCCCCCD denotes -c, 0x4C800000 denotes 2^26 = 8192 * 8192, and
    0x30CCCCCD denotes c / 2^26 = 13421773 / 2^53 (the same significand, the exponent lowered by 26).
  So "divide by 2^26, then multiply by c" and "multiply by the pattern 0x30CCCCCD" are the same map.
-/
import Idealize.ShloMosaic.PureOps.Ideal

noncomputable section

namespace Cert.GeoConsts

open Idealize.ShloMosaic

/-- The f32 nearest to one tenth is 13421773 / 2^27. -/
theorem ofBits_tenth : Ideal.ofBits .f32 0x3DCCCCCD#32 = ((13421773 / 134217728 : ℝ) : EReal) := by
  simp [Ideal.ofBits, Ideal.ieee, -EReal.coe_mul]; norm_num

/-- Its negative: the same pattern with the sign bit set. -/
theorem ofBits_neg_tenth : Ideal.ofBits .f32 0xBDCCCCCD#32 = ((-(13421773 / 134217728) : ℝ) : EReal) := by
  simp [Ideal.ofBits, Ideal.ieee, -EReal.coe_mul]; norm_num

/-- The number of ordered pairs of rows, 8192 * 8192 = 2^26. -/
theorem ofBits_pairs : Ideal.ofBits .f32 0x4C800000#32 = ((67108864 : ℝ) : EReal) := by
  simp [Ideal.ofBits, Ideal.ieee, -EReal.coe_mul]; norm_num

/-- One tenth's f32 divided by 2^26: the significand kept, the exponent lowered by 26. -/
theorem ofBits_tenth_over_pairs :
    Ideal.ofBits .f32 0x30CCCCCD#32 = ((13421773 / 9007199254740992 : ℝ) : EReal) := by
  simp [Ideal.ofBits, Ideal.ieee, -EReal.coe_mul]; norm_num

end Cert.GeoConsts

end
-- ==== Proof.ScaleLaw.lean ====
/-
  The two places where the programs spell a constant differently, as laws on the extended reals.

  (1) One program multiplies the distance d by the pattern of -c, the other negates d and multiplies by the pattern of c
      (c the f32 nearest one tenth):  d * (-c) = (-d) * c, for every extended real d.
  (2) One program multiplies the total S by the pattern of c / 2^26, the other adds S to zero, divides by 2^26 and then
      multiplies by c.  Division by the nonzero real 2^26 is multiplication by 1 / 2^26 at the infinities too, and
      multiplication is associative there, so  S * (c / 2^26) = ((0 + S) / 2^26) * c  for every extended real S.
  Neither law needs S or d finite.
-/
import proofs.«129050_j7378753815129_2_alg».proof.Proof.Consts
import proofs.«129050_j7378753815129_2_alg».proof.Proof.PairDecay

noncomputable section

namespace Cert.PairDecay

open Idealize.ShloMosaic Cert.GeoConsts

/-- (1), at the decayed distance. -/
theorem decay_eq_neg (x : Rows.Idx → EReal) (a b : Fin 8192) :
    decay x a b = Ideal.exp (-(dist x a b) * Ideal.ofBits .f32 0x3DCCCCCD#32) := by
  unfold decay
  rw [ofBits_neg_tenth, ofBits_tenth, EReal.coe_neg, mul_neg, neg_mul]

/-- (2). -/
theorem scale_eq (S : EReal) :
    S * Ideal.ofBits .f32 0x30CCCCCD#32
      = Ideal.div (Ideal.ofBits .f32 0x00000000#32 + S) (Ideal.ofBits .f32 0x4C800000#32) * Ideal.ofBits .f32 0x3DCCCCCD#32 := by
  rw [Ideal.ofBits_zero_f32, zero_add, ofBits_pairs, ofBits_tenth, ofBits_tenth_over_pairs,
    Ideal.div_coe (by norm_num : (67108864 : ℝ) ≠ 0), mul_assoc, ← EReal.coe_mul]
  norm_num

end Cert.PairDecay

end
-- ==== Proof.Bridge.lean ====
/-
  The two programs' first results are one extended real.

  Both flatten the argument to the same 8192 × 512 array X.  The kernel program ends with
      (Σ_{a,b} exp (dist(a,b) * (-c))) * (c / 2^26)
  and the reference with
      ((0 + Σ_{a,b} exp ((- dist(a,b)) * c)) / 2^26) * c,
  c the f32 nearest one tenth: the summands agree by d * (-c) = (-d) * c and the scalings by the law of division by
  2^26 and associativity.
-/
import proofs.«129050_j7378753815129_2_alg».proof.Proof.KernelValue
import proofs.«129050_j7378753815129_2_alg».proof.Proof.RefSide
import proofs.«129050_j7378753815129_2_alg».proof.Proof.ScaleLaw
import Idealize.ShloMosaic.Lib.StableHlo.Run

set_option pp.deepTerms false
set_option pp.maxSteps 5000

noncomputable section

open Idealize.ShloMosaic Idealize.ShloMosaic.TcCoe Idealize.SL.Sem

namespace Cert.Bridge

open Cert.PairDecay

/-- The array the region finds in the kernel program is the reference's flattened argument. -/
theorem flattened_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v0 : Rows.Idx → EReal)
      = Cert.ReferenceIdeal.Read.val_main_v0 (F := Ideal)
          (m ((c.tc : Thread Cert.KernelIdeal.nD Cert.KernelIdeal.τ).loc Cert.KernelIdeal.main_arg0)) := by
  show StableHlo.after Cert.KernelIdeal.Gen.hostOps0 (fun b => m (c, b)) (Proc.devRef .tc Cert.KernelIdeal.main_v0) = _
  after_results
  rfl

/-- The reference's first result, of the kernel program's argument, is the kernel program's scaled total. -/
theorem first_result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v22 (F := Ideal)
        (m ((c.tc : Thread Cert.KernelIdeal.nD Cert.KernelIdeal.τ).loc Cert.KernelIdeal.main_arg0))
      = fun _ => Cert.KernelIdeal.Tile.scaledTotal m c := by
  rw [Cert.ReferenceIdeal.RefValue.loss_eq]
  funext _
  unfold Cert.KernelIdeal.Tile.scaledTotal
  rw [scale_eq, flattened_eq]
  simp only [decay_eq_neg]

end Cert.Bridge

end
-- ==== Proof.lean ====
/-
  The five claims of this certificate.

  The kernel program flattens the argument to X (8192 rows of 512 entries), visits the 8 × 8 tiles of ordered pairs of
  row bands, adds each tile's sum of decayed distances exp (dist(a,b) * (-c)) into a 1 × 1 accumulator, and after the
  last tile stores the accumulator times the pattern of c / 2^26; it returns that number and one half of it.  The
  reference computes all the decayed distances exp ((- dist(a,b)) * c) at once, sums them, divides by 2^26, multiplies by
  c, and returns that and one half of it.  Over the extended reals the two first results are one number (the tiles'
  sums add up to the sum over all pairs; the two spellings of the constants agree), and the second results are the same
  function, one half times, of the first.
    * The three frames: the two kernel programs' from the frame run of the grid, the reference's from its run.
    * Idealization rewrote two round trips f32 -> bf16 -> f32 into the identity: each is the rule's own statement.
-/
import proofs.«129050_j7378753815129_2_alg».proof.Defs
import proofs.«129050_j7378753815129_2_alg».proof.Proof.Gen.Kernel
import proofs.«129050_j7378753815129_2_alg».proof.Proof.Gen.Kernel.Frame
import proofs.«129050_j7378753815129_2_alg».proof.Proof.Gen.KernelIdeal
import proofs.«129050_j7378753815129_2_alg».proof.Proof.Gen.KernelIdeal.Frame
import proofs.«129050_j7378753815129_2_alg».proof.Proof.Gen.ReferenceIdeal
import proofs.«129050_j7378753815129_2_alg».proof.Proof.Gen.ReferenceIdeal.Run
import proofs.«129050_j7378753815129_2_alg».proof.Proof.Gen.ReferenceIdeal.Read
import proofs.«129050_j7378753815129_2_alg».proof.Proof.Gen.Pre_finite_inputs
import proofs.«129050_j7378753815129_2_alg».proof.Proof.KernelValue
import proofs.«129050_j7378753815129_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- A value rounded to bf16 and widened back is the value itself on the extended reals: twice, once per band. -/
theorem preserves : Cert.preserves_Kernel_KernelIdeal :=
  ⟨IdealRules.truncf_extf.statement _ .f32 .bf16, IdealRules.truncf_extf.statement _ .f32 .bf16⟩

/-- From arguments that agree, both programs end with the same two numbers. -/
theorem algebraic : Cert.algebraic_KernelIdeal_ReferenceIdeal := by
  intro m ρ m' ρ' _ hagree
  refine ⟨fun c => fun _ => Cert.KernelIdeal.Tile.scaledTotal m c,
    fun c => mulf (constant (F := Ideal) Cert.KernelIdeal.S_ .f32 0x3F000000#32) (fun _ => Cert.KernelIdeal.Tile.scaledTotal m c),
    Cert.KernelIdeal.Tile.run m ρ, ?_⟩
  refine (θ_run Cert.ReferenceIdeal.defs _ _).mono (fun _ h c => ?_) (Cert.ReferenceIdeal.Value.run (F := Ideal) m' ρ')
  have hfirst := Cert.Bridge.first_result_eq m c
  refine ⟨(h c).1.trans ?_, (h c).2.1.trans ?_, (h c).2.2⟩
  · rw [Cert.ReferenceIdeal.Read.val_main_v22_eq, hagree c]
    exact hfirst
  · rw [Cert.ReferenceIdeal.Read.val_main_v23_eq, hagree c]
    unfold Cert.ReferenceIdeal.Read.val_main_v23
    rw [hfirst]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
